-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x22 : Shape := ⟨2, ![100000, 22]⟩
abbrev S2x3200000 : Shape := ⟨2, ![2, 3200000]⟩
abbrev S22x64 : Shape := ⟨2, ![22, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x22 : S_.BroadcastsInDim S100000x22 (![] : Fin 0 → Fin S100000x22.rank)
  reducesTo_S100000x22_S_d0_1 : S100000x22.ReducesTo [0, 1] S_
  h_S_ : 0 < S_.numel
  bcast_S_S22x64 : S_.BroadcastsInDim S22x64 (![] : Fin 0 → Fin S22x64.rank)
  reducesTo_S22x64_S_d0_1 : S22x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x22 .f32) (main_arg1 : IVec S2x3200000 32) (main_arg2 : FVec F S22x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x22 .f32 := Host.absf main_arg0
  let main_cst : FVec F S_ .f32 := constant S_ .f32 0x7F800000#32
  let main_v1 : FVec F S100000x22 .f32 := broadcastInDim S100000x22 ![] bcast_S_S100000x22 main_cst
  let main_v2 : IVec S100000x22 1 := cmpf .olt main_v0 main_v1
  let main_c : IVec S_ 1 := constantI S_ 1 1#1
  let main_v3 : IVec S_ 1 := (fun x v => Host.reduce IntOp.andi x v reducesTo_S100000x22_S_d0_1 h_S_) main_v2 main_c
  let main_v4 : FVec F S22x64 .f32 := Host.absf main_arg2
  let main_cst_0 : FVec F S_ .f32 := constant S_ .f32 0x7F800000#32
  let main_v5 : FVec F S22x64 .f32 := broadcastInDim S22x64 ![] bcast_S_S22x64 main_cst_0
  let main_v6 : IVec S22x64 1 := cmpf .olt main_v4 main_v5
  let main_c_1 : IVec S_ 1 := constantI S_ 1 1#1
  let main_v7 : IVec S_ 1 := (fun x v => Host.reduce IntOp.andi x v reducesTo_S22x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x22 : Shape := ⟨2, ![100000, 22]⟩
abbrev S2x3200000 : Shape := ⟨2, ![2, 3200000]⟩
abbrev S22x64 : Shape := ⟨2, ![22, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x22 : Shape := ⟨2, ![10000, 22]⟩
abbrev S10000x64 : Shape := ⟨2, ![10000, 64]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 85
  | .vmem => 18
  | .smem => 0
  | _ => 0

abbrev bufTy : (tb : Table) → Fin (tcTables nBuf tb) → BufTy
  | .hbm, ⟨0, _⟩ => ⟨S100000x22, .f32⟩
  | .hbm, ⟨1, _⟩ => ⟨S2x3200000, .i32⟩
  | .hbm, ⟨2, _⟩ => ⟨S22x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S3300000, .i32⟩
  | .hbm, ⟨19, _⟩ => ⟨S3300000, .i1⟩
  | .hbm, ⟨20, _⟩ => ⟨S_, .i32⟩
  | .hbm, ⟨21, _⟩ => ⟨S3300000, .i32⟩
  | .hbm, ⟨22, _⟩ => ⟨S3300000, .i32⟩
  | .hbm, ⟨23, _⟩ => ⟨S3300000, .i32⟩
  | .hbm, ⟨24, _⟩ => ⟨S3300000x1, .i32⟩
  | .hbm, ⟨25, _⟩ => ⟨S_, .f32⟩
  | .hbm, ⟨26, _⟩ => ⟨S3300000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S3300000x1, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x64, .f32⟩
  | .hbm, ⟨76, _⟩ => ⟨S3300000x64, .f32⟩
  | .hbm, ⟨77, _⟩ => ⟨S3300000x64, .f32⟩
  | .hbm, ⟨78, _⟩ => ⟨S_, .f32⟩
  | .hbm, ⟨79, _⟩ => ⟨S100000x64, .f32⟩
  | .hbm, ⟨80, _⟩ => ⟨S3300000x1, .i32⟩
  | .hbm, ⟨81, _⟩ => ⟨S100000x64, .f32⟩
  | .hbm, ⟨82, _⟩ => ⟨S1x64, .f32⟩
  | .hbm, ⟨83, _⟩ => ⟨S1x1, .f32⟩
  | .hbm, ⟨84, _⟩ => ⟨S100000x1, .f32⟩
  | .local _ .vmem, ⟨0, _⟩ => ⟨S10000x22, .f32⟩
  | .local _ .vmem, ⟨1, _⟩ => ⟨S10000x22, .f32⟩
  | .local _ .vmem, ⟨2, _⟩ => ⟨S22x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  inb_S10000x22_S10000x22_0_0 : ∀ a, (![0, 0] : Fin 2 → Nat) a + S10000x22.size a ≤ S10000x22.size a
  h_S10000x22 : 0 < S10000x22.numel
  bitsLt_bf16_f32 : FTy.bits .bf16 < FTy.bits .f32
  inb_S22x64_S22x64_0_0 : ∀ a, (![0, 0] : Fin 2 → Nat) a + S22x64.size a ≤ S22x64.size a
  h_S22x64 : 0 < S22x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x22_S22x64_S10000x64_1_0_0_1_n_n_wf : DotDims.WF S10000x22 S22x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x22.size a ≤ S100000x22.size a
  hwx0_0 : ∀ i : grid0.Coords, EltTy.bits .f32 = 32 ∨ (Rect.block (s := S100000x22) S10000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x64.size a ≤ S22x64.size a
  hwx0_1 : ∀ i : grid0.Coords, EltTy.bits .f32 = 32 ∨ (Rect.block (s := S22x64) S22x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x22_S22x64_S10000x64_1_0_0_1_n_n : DotDims S10000x22 S22x64 S10000x64 where
  lhsContracting := [1]
  rhsContracting := [0]
  lhsNonContracting := [0]
  rhsNonContracting := [1]
  lhsBatch := []
  rhsBatch := []
  wf := dot_S10000x22_S22x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S22x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x22 : Shape := ⟨2, ![100000, 22]⟩
abbrev S2x3200000 : Shape := ⟨2, ![2, 3200000]⟩
abbrev S22x64 : Shape := ⟨2, ![22, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x22, .f32⟩
  | .hbm, ⟨1, _⟩ => ⟨S2x3200000, .i32⟩
  | .hbm, ⟨2, _⟩ => ⟨S22x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S3300000, .i32⟩
  | .hbm, ⟨19, _⟩ => ⟨S3300000, .i1⟩
  | .hbm, ⟨20, _⟩ => ⟨S_, .i32⟩
  | .hbm, ⟨21, _⟩ => ⟨S3300000, .i32⟩
  | .hbm, ⟨22, _⟩ => ⟨S3300000, .i32⟩
  | .hbm, ⟨23, _⟩ => ⟨S3300000, .i32⟩
  | .hbm, ⟨24, _⟩ => ⟨S3300000x1, .i32⟩
  | .hbm, ⟨25, _⟩ => ⟨S_, .f32⟩
  | .hbm, ⟨26, _⟩ => ⟨S3300000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | _, _ => ⟨S100000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x22_S22x64_S100000x64_1_0_0_1_n_n_wf : DotDims.WF S100000x22 S22x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x22_S22x64_S100000x64_1_0_0_1_n_n : DotDims S100000x22 S22x64 S100000x64 where
  lhsContracting := [1]
  rhsContracting := [0]
  lhsNonContracting := [0]
  rhsNonContracting := [1]
  lhsBatch := []
  rhsBatch := []
  wf := dot_S100000x22_S22x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its RESULT kept. The program is three pipelined matrix products among stretches of
  host operations; its buffers' contents at each boundary are a fold from the launch memory (host stretch: the
  operations applied in order; pipelined product: its output array at what the grid's write-backs leave). Every weakly
  fair execution terminates with every unscoped buffer at the last boundary's contents; read at the result buffer
  and at the eight arguments this is the statement below: the result is the last boundary's contents at the result
  buffer, the arguments are as launched.
-/
import proofs.«120038_j26852135535045_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents (the third product's output array after its ten write-backs) and the arguments as launched. -/
theorem run : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Result

end
-- ==== Proof.Graph.lean ====
/-
  The two-layer graph convolution as whole-array functions, in the host operations' own terms.

  From the edge list e (2 × 3200000 integers) the edge ends with one self-loop per node appended: `src e`, `dst e`
  (3300000 each); `wrap` adds 100000 to a negative end (the gather's index convention). The in-degree with self-loops
  is a scatter-add of ones at the destinations, `dinv` its reciprocal square root, and the edge weight
  `norm e = dinv[src] · dinv[dst]`. One convolution `conv e H` gathers the rows of the node features H at the sources,
  scales row by row by the edge weight and scatter-adds into the destinations' rows. A layer adds the bias row to every
  node, clamps at zero from below (`act`) and multiplies by the weights. The network is
  `out = act(conv(act(conv(x·W₁)) + b₁ … )·W₂ …)·W_f + b_f`, spelt out in `out`; the reference program's result is `out` of
  its arguments by unfolding.
-/
import proofs.«120038_j26852135535045_1_alg».proof.Proof.Gen.ReferenceIdeal.Run
import Idealize.ShloMosaic.PureOps.Ideal

set_option maxRecDepth 16384

noncomputable section

namespace Cert.Gcn

open Cert.ReferenceIdeal Cert.ReferenceIdeal.Gen Idealize.ShloMosaic Idealize.ShloMosaic.TcCoe Idealize.SL.Sem Idealize.ShloMosaic.StableHlo

abbrev Edges := IVec S2x3200000 32
abbrev Ends := IVec S3300000 32
abbrev Weights := FVec Ideal S3300000 .f32
abbrev Feat := FVec Ideal S100000x64 .f32

/-- The edges' sources, then every node once (the self-loops). -/
def src (e : Edges) : Ends :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0
/-- The edges' destinations, then every node once. -/
def dst (e : Edges) : Ends :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0
/-- A negative index counts from the end: 100000 is added to it. -/
def wrap (v : Ends) : Ends :=
  select (cmpi .slt v (broadcastInDim S3300000 ![] bcast_S_S3300000 (constantI S_ 32 0#32))) (addi v (broadcastInDim S3300000 ![] bcast_S_S3300000 (constantI S_ 32 100000#32))) v
/-- One over the square root of the in-degree (self-loop included) of every node. -/
def dinv (e : Edges) : FVec Ideal S100000 .f32 :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (wrap (dst e))) (broadcastInDim S3300000 ![] bcast_S_S3300000 (constant S_ .f32 0x3F800000#32)))
/-- The weight of every edge: the product of `dinv` at its two ends. -/
def norm (e : Edges) : Weights :=
  mulf (Host.gather gather_S100000_S3300000x1_S3300000_n_0_n_n_0_1_1 (dinv e) (broadcastInDim S3300000x1 ![0] bcast_S3300000_S3300000x1_0 (wrap (src e)))) (Host.gather gather_S100000_S3300000x1_S3300000_n_0_n_n_0_1_1 (dinv e) (broadcastInDim S3300000x1 ![0] bcast_S3300000_S3300000x1_0 (wrap (dst e))))
/-- One graph convolution of node features: gather at the sources, scale by the edge weight, add up at the destinations. -/
def conv (e : Edges) (H : Feat) : Feat :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dst e)) (mulf (Host.gather gather_S100000x64_S3300000x1_S3300000x64_1_0_n_n_0_1_164 H (broadcastInDim S3300000x1 ![0] bcast_S3300000_S3300000x1_0 (wrap (src e)))) (broadcastInDim S3300000x64 ![0, 1] bcast_S3300000x1_S3300000x64_0_1 (broadcastInDim S3300000x1 ![0] bcast_S3300000_S3300000x1_0 (norm e))))
/-- The bias row added to every node's features, then the maximum with zero. -/
def act (A : Feat) (bb : FVec Ideal S1x64 .f32) : Feat :=
  maximumf (addf A (broadcastInDim S100000x64 ![0, 1] bcast_S1x64_S100000x64_0_1 bb)) (broadcastInDim S100000x64 ![] bcast_S_S100000x64 (constant S_ .f32 0x00000000#32))
/-- A vector of 64 as a 1 × 64 row. -/
def row (b : FVec Ideal S64 .f32) : FVec Ideal S1x64 .f32 :=
  broadcastInDim S1x64 ![1] bcast_S64_S1x64_1 b
/-- A vector of one entry as a 1 × 1 array. -/
def one (b : FVec Ideal S1 .f32) : FVec Ideal S1x1 .f32 :=
  broadcastInDim S1x1 ![1] bcast_S1_S1x1_1 b
/-- The first product: the input features times the first weights. -/
def lin1 (x : FVec Ideal S100000x22 .f32) (w : FVec Ideal S22x64 .f32) : Feat :=
  Host.dotGeneral dot_S100000x22_S22x64_S100000x64_1_0_0_1_n_n none x w
/-- The second product, of the activated features. -/
def layer2 (A : Feat) (bb : FVec Ideal S1x64 .f32) (w : FVec Ideal S64x64 .f32) : Feat :=
  Host.dotGeneral dot_S100000x64_S64x64_S100000x64_1_0_0_1_n_n none (act A bb) w
/-- The head: the activated features times the last weights (one column), plus the last bias on every node. -/
def head (A : Feat) (bb : FVec Ideal S1x64 .f32) (w : FVec Ideal S64x1 .f32)
    (cc : FVec Ideal S1x1 .f32) : FVec Ideal S100000x1 .f32 :=
  addf (Host.dotGeneral dot_S100000x64_S64x1_S100000x1_1_0_0_1_n_n none (act A bb) w) (broadcastInDim S100000x1 ![0, 1] bcast_S1x1_S100000x1_0_1 cc)

/-- The whole network on whole arrays. -/
def out (x : FVec Ideal S100000x22 .f32) (e : Edges) (w1 : FVec Ideal S22x64 .f32)
    (b1 : FVec Ideal S64 .f32) (w2 : FVec Ideal S64x64 .f32)
    (b2 : FVec Ideal S64 .f32) (wf : FVec Ideal S64x1 .f32)
    (bf : FVec Ideal S1 .f32) : FVec Ideal S100000x1 .f32 :=
  head (conv e (layer2 (conv e (lin1 x w1)) (row b1) w2)) (row b2) wf (one bf)

/-- The reference program's result term is the network of its arguments. -/
theorem reference_result (m : (ℓ : Loc nD τ sig) → Buf (Elt Ideal) ℓ) (c : Dev nD) :
    Cert.ReferenceIdeal.Value.res_main_v71 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v71 out head layer2 lin1 one row act conv norm dinv wrap src dst
  rfl

end Cert.Gcn

end
-- ==== Proof.Product1.lean ====
/-
  The first matrix product, h = x · W₁ (100000 × 22 by 22 × 64), as the pipelined kernel computes it: the grid has ten
  points, point t multiplies rows 10000·t … 10000·t + 9999 of x by the whole of W₁ into a zero accumulator and writes
  the 10000 × 64 block back to the same rows of the output. Entry (r, j) of a block is Σ_k x[10000·t + r, k] · W₁[k, j],
  which is entry (10000·t + r, j) of the whole product; the ten blocks tile the rows, so after the last write-back the
  output array is the whole product, here in the form of the host's contraction of the two arrays.
-/
import proofs.«120038_j26852135535045_1_alg».proof.Proof.Gen.KernelIdeal.Frame
import proofs.«120038_j26852135535045_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Gcn.Product1

open Cert.KernelIdeal Cert.KernelIdeal.Gen
open Idealize.ShloMosaic Idealize.ShloMosaic.TcCoe Idealize.SL.Sem
open Idealize.ShloMosaic.Pipeline (Dat)

theorem origin : (![0, 0] : Fin 2 → Nat) = fun _ => 0 := funext fun a => by fin_cases a <;> rfl

/-- Row `r` of the left block at contraction step `k`. -/
abbrev lrow (j : S10000x64.Idx) (k : Fin 22) : S10000x22.Idx := fun a => match a with
  | ⟨0, _⟩ => ⟨(j 0).val, (j 0).isLt⟩
  | ⟨1, _⟩ => ⟨k.val, k.isLt⟩
/-- Column `j` of the weights at contraction step `k`. -/
abbrev rcol (j : S10000x64.Idx) (k : Fin 22) : S22x64.Idx := fun a => match a with
  | ⟨0, _⟩ => ⟨k.val, k.isLt⟩
  | ⟨1, _⟩ => ⟨(j 1).val, (j 1).isLt⟩

theorem lhs_0 (i : S10000x64.Idx) (q : dot_S10000x22_S22x64_S10000x64_1_0_0_1_n_n.contr.Idx) :
    (dot_S10000x22_S22x64_S10000x64_1_0_0_1_n_n.lhsIdx i q 0).val = (i 0).val := by
  unfold DotDims.lhsIdx
  rw [dif_neg (show ¬(0 : Fin S10000x22.rank) ∈ dot_S10000x22_S22x64_S10000x64_1_0_0_1_n_n.lhsBatch by decide), dif_pos (show (0 : Fin S10000x22.rank) ∈ dot_S10000x22_S22x64_S10000x64_1_0_0_1_n_n.lhsNonContracting by decide)]
  rfl
theorem lhs_1 (i : S10000x64.Idx) (q : dot_S10000x22_S22x64_S10000x64_1_0_0_1_n_n.contr.Idx) :
    (dot_S10000x22_S22x64_S10000x64_1_0_0_1_n_n.lhsIdx i q 1).val = (q ⟨0, by decide⟩).val :=
  dot_S10000x22_S22x64_S10000x64_1_0_0_1_n_n.lhsIdx_val_of_single rfl i q
theorem rhs_0 (i : S10000x64.Idx) (q : dot_S10000x22_S22x64_S10000x64_1_0_0_1_n_n.contr.Idx) :
    (dot_S10000x22_S22x64_S10000x64_1_0_0_1_n_n.rhsIdx i q 0).val = (q ⟨0, by decide⟩).val :=
  dot_S10000x22_S22x64_S10000x64_1_0_0_1_n_n.rhsIdx_val_of_single rfl i q
theorem rhs_1 (i : S10000x64.Idx) (q : dot_S10000x22_S22x64_S10000x64_1_0_0_1_n_n.contr.Idx) :
    (dot_S10000x22_S22x64_S10000x64_1_0_0_1_n_n.rhsIdx i q 1).val = (i 1).val := by
  unfold DotDims.rhsIdx
  rw [dif_neg (show ¬(1 : Fin S22x64.rank) ∈ dot_S10000x22_S22x64_S10000x64_1_0_0_1_n_n.rhsBatch by decide), dif_pos (show (1 : Fin S22x64.rank) ∈ dot_S10000x22_S22x64_S10000x64_1_0_0_1_n_n.rhsNonContracting by decide)]
  rfl

/-- What the body stores, entry by entry: the block product as a sum over the 22 contraction steps (the change of
    float format before the product is the identity on the extended reals, the accumulator starts at zero). -/
theorem pay_apply (x0 : FVec Ideal S10000x22 .f32) (x1 : FVec Ideal S22x64 .f32) (j : S10000x64.Idx) :
    k0_pay1 (F := Ideal) x0 x1 j = ∑ k : Fin 22, x0 (lrow j k) * x1 (rcol j k) := by
  unfold k0_pay1
  refine (Ideal.matmul_constant_zero_apply dot_S10000x22_S22x64_S10000x64_1_0_0_1_n_n none _ _ j).trans ?_
  rw [← Equiv.sum_comp (ValueIdx.contrEquiv1 dot_S10000x22_S22x64_S10000x64_1_0_0_1_n_n 22 rfl rfl).symm]
  refine Finset.sum_congr rfl fun k _ => ?_
  have hk := ValueIdx.contrEquiv1_symm_val dot_S10000x22_S22x64_S10000x64_1_0_0_1_n_n 22 rfl rfl k
  have el : dot_S10000x22_S22x64_S10000x64_1_0_0_1_n_n.lhsIdx j ((ValueIdx.contrEquiv1 dot_S10000x22_S22x64_S10000x64_1_0_0_1_n_n 22 rfl rfl).symm k) = lrow j k := funext fun a => Fin.ext (by
    match a with
    | ⟨0, _⟩ => exact lhs_0 _ _
    | ⟨1, _⟩ => exact (lhs_1 _ _).trans hk)
  have er : dot_S10000x22_S22x64_S10000x64_1_0_0_1_n_n.rhsIdx j ((ValueIdx.contrEquiv1 dot_S10000x22_S22x64_S10000x64_1_0_0_1_n_n 22 rfl rfl).symm k) = rcol j k := funext fun a => Fin.ext (by
    match a with
    | ⟨0, _⟩ => exact (rhs_0 _ _).trans hk
    | ⟨1, _⟩ => exact rhs_1 _ _)
  rw [el, er]
  rfl

variable (V : (c : Dev nD) → (b : Ref sig .tc) → Buf (Elt Ideal) ((c : Thread nD τ).loc b))

/-- The printed index maps, decided over the grid: the row block of x and the output block move together along the
    rows and stay at column block 0; the weights never move; the output's row block is below 10. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the arrays as the region finds them. -/
theorem flushed_eq (c : Dev nD) (t : Fin cfg0.N) :
    (dat0 V c).flushed 2 t = ((cfg0.win 2).blk t).view.read (Elt Ideal)
      (Cert.ReferenceIdeal.Read.val_main_v32 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S10000x22) origin, View.ld_unit_zero (S := S22x64) origin]
  obtain ⟨e0, e1, e2, e3, e4, e5⟩ := idx_facts t
  funext j
  show k0_pay1 (iblk0 V c 0 t) (iblk0 V c 1 t) j
    = Cert.ReferenceIdeal.Read.val_main_v32 (F := Ideal) (V c main_arg0) (V c main_arg2) (((cfg0.win 2).blk t).view.emb j)
  rw [pay_apply, Cert.ReferenceIdeal.Read.val_main_v32_apply]
  refine Finset.sum_congr rfl fun k _ => ?_
  have h0 : ((cfg0.win 0).blk t).view.emb (lrow j k) = Cert.ReferenceIdeal.Read.lidx_main_v32 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 22 + 1 * k.val = k.val; omega
  have h1 : ((cfg0.win 1).blk t).view.emb (rcol j k) = Cert.ReferenceIdeal.Read.ridx_main_v32 (((cfg0.win 2).blk t).view.emb j) k := by
    funext a; apply Fin.ext
    match a with
    | ⟨0, _⟩ => show win0_1.index t (0 : Fin 2) * 22 + 1 * k.val = k.val; omega
    | ⟨1, _⟩ => show win0_1.index t (1 : Fin 2) * 64 + 1 * (j 1).val = win0_2.index t (1 : Fin 2) * 64 + 1 * (j 1).val; omega
  refine congrArg₂ (fun (a b : EReal) => a * b) ?_ ?_
  · show V c main_arg0 (((cfg0.win 0).blk t).view.emb (lrow j k)) = _
    rw [h0]
  · show V c main_arg2 (((cfg0.win 1).blk t).view.emb (rcol j k)) = _
    rw [h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Row `r` is in the block of the point whose row block is `r / 10000`: the ten blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the ten write-backs is the whole product. -/
theorem array_eq (c : Dev nD) :
    (dat0 V c).arrAt 2 cfg0.N = Cert.ReferenceIdeal.Read.val_main_v32 (F := Ideal) (V c main_arg0) (V c main_arg2) :=
  (dat0 V c).arrAt_eq_of_cover 2 _ (fun t _ => flushed_eq V c t) cover

end Cert.Gcn.Product1

end
-- ==== Proof.Product2.lean ====
/-
  The second matrix product, h₂ = max(a + b₁, 0) · W₂ (100000 × 64 by 64 × 64), as the pipelined kernel computes it: at
  grid point t the body loads rows 10000·t … 10000·t + 9999 of the aggregated features a, the bias as a 1 × 64 row and the
  whole of W₂, adds the bias to every row, clamps at zero from below, and multiplies into a zero accumulator. Entry (r, j) of
  the block is Σ_k max(a[10000·t + r, k] + b₁[k], 0) · W₂[k, j], which is entry (10000·t + r, j) of the whole layer; the
  ten blocks tile the rows, so the output array ends as the whole layer `layer2`.
-/
import proofs.«120038_j26852135535045_1_alg».proof.Proof.Gen.KernelIdeal.Frame
import proofs.«120038_j26852135535045_1_alg».proof.Proof.Gen.ReferenceIdeal.Read
import proofs.«120038_j26852135535045_1_alg».proof.Proof.Graph
import Idealize.ShloMosaic.Lib.Pipeline.Value
import Idealize.ShloMosaic.Lib.ValueIdx
import Idealize.ShloMosaic.PureOps.Ideal.Laws

set_option maxRecDepth 16384

noncomputable section

namespace Cert.Gcn.Product2

open Cert.KernelIdeal Cert.KernelIdeal.Gen
open Idealize.ShloMosaic Idealize.ShloMosaic.TcCoe Idealize.SL.Sem
open Idealize.ShloMosaic.Pipeline (Dat)

theorem origin : (![0, 0] : Fin 2 → Nat) = fun _ => 0 := funext fun a => by fin_cases a <;> rfl

/-- Row `r` of the feature block at contraction step `k`. -/
abbrev lrow (j : S10000x64.Idx) (k : Fin 64) : S10000x64.Idx := fun a => match a with
  | ⟨0, _⟩ => ⟨(j 0).val, (j 0).isLt⟩
  | ⟨1, _⟩ => ⟨k.val, k.isLt⟩
/-- Entry `k` of the bias row. -/
abbrev brow (k : Fin 64) : S1x64.Idx := fun a => match a with
  | ⟨0, _⟩ => ⟨0, Nat.one_pos⟩
  | ⟨1, _⟩ => ⟨k.val, k.isLt⟩
/-- Column `j` of the weights at contraction step `k`. -/
abbrev rcol (j : S10000x64.Idx) (k : Fin 64) : S64x64.Idx := fun a => match a with
  | ⟨0, _⟩ => ⟨k.val, k.isLt⟩
  | ⟨1, _⟩ => ⟨(j 1).val, (j 1).isLt⟩

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, entry by entry: bias added, clamped at zero, then the block product as a sum over the 64
    contraction steps (format changes are the identity on the extended reals; the accumulator starts at zero). -/
theorem pay_apply (x0 : FVec Ideal S10000x64 .f32) (x1 : FVec Ideal S1x64 .f32) (x2 : FVec Ideal S64x64 .f32) (j : S10000x64.Idx) :
    k1_pay1 (F := Ideal) x0 x1 x2 j
      = ∑ k : Fin 64, max (x0 (lrow j k) + x1 (brow k)) (Ideal.ofBits .f32 0x00000000#32) * x2 (rcol j k) := by
  unfold k1_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = lrow j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((ValueIdx.contrEquiv1 dot_S10000x64_S64x64_S10000x64_1_0_0_1_n_n 64 rfl rfl).symm k) = rcol j k := funext fun a => Fin.ext (by
    match a with
    | ⟨0, _⟩ => exact (rhs_0 _ _).trans hk
    | ⟨1, _⟩ => exact rhs_1 _ _)
  rw [el, er]
  refine congrArg₂ (fun (a b : EReal) => a * b) ?_ rfl
  refine congrArg₂ (fun (a b : EReal) => max (a + b) (Ideal.ofBits .f32 0x00000000#32)) ?_ ?_
  · exact congrFun (shapeCast_self x0 shapeCasts_S10000x64_S10000x64) (lrow j k)
  · refine (broadcastTo_apply (shapeCast S1x64 x1 shapeCasts_S1x64_S1x64) broadcasts_S1x64_S10000x64 (lrow j k) (brow k) (fun a => match a with
      | ⟨0, _⟩ => by show 0 = if (1 : Nat) = 1 then 0 else _; rw [if_pos rfl]
      | ⟨1, _⟩ => by show k.val = if (64 : Nat) = 1 then 0 else k.val; rw [if_neg (by decide)])).trans ?_
    exact congrFun (shapeCast_self x1 shapeCasts_S1x64_S1x64) (brow k)

/-- The whole layer read at an entry: the same sum, over the whole arrays. -/
theorem layer2_apply (A : Feat) (bb : FVec Ideal Cert.ReferenceIdeal.S1x64 .f32)
    (w : FVec Ideal Cert.ReferenceIdeal.S64x64 .f32) (i : Cert.ReferenceIdeal.S100000x64.Idx) :
    layer2 A bb w i = ∑ k : Fin 64, max (A (Cert.ReferenceIdeal.Read.lidx_main_v50 i k) + bb (Cert.ReferenceIdeal.Read.idx_main_v47 (Cert.ReferenceIdeal.Read.lidx_main_v50 i k))) (Ideal.ofBits .f32 0x00000000#32) * w (Cert.ReferenceIdeal.Read.ridx_main_v50 i k) := by
  unfold layer2
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]
  refine congrArg₂ (fun (a b : EReal) => a * b) ?_ rfl
  unfold act
  refine congrArg₂ (fun (a b : EReal) => max (A (Cert.ReferenceIdeal.Read.lidx_main_v50 i k) + a) b) ?_ ?_
  · exact broadcastInDim_apply _ _ bb (Cert.ReferenceIdeal.Read.lidx_main_v50 i k) (Cert.ReferenceIdeal.Read.idx_main_v47 (Cert.ReferenceIdeal.Read.lidx_main_v50 i k)) (fun a => match a with
      | ⟨0, _⟩ => by show 0 = if (1 : Nat) = 1 then 0 else _; rw [if_pos rfl]
      | ⟨1, _⟩ => by show k.val = if (64 : Nat) = 1 then 0 else k.val; rw [if_neg (by decide)])
  · exact broadcastInDim_apply _ _ (constant (F := Ideal) Cert.ReferenceIdeal.S_ .f32 0x00000000#32) (Cert.ReferenceIdeal.Read.lidx_main_v50 i k) (fun a => a.elim0) (fun a => a.elim0)

variable (V : (c : Dev nD) → (b : Ref sig .tc) → Buf (Elt Ideal) ((c : Thread nD τ).loc b))

/-- The printed index maps, decided over the grid: the feature block and the output block move together along the
    rows and stay at column block 0; the bias row and the weights never move; the output's row block is below 10. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the whole layer of the arrays as the region finds them. -/
theorem flushed_eq (c : Dev nD) (t : Fin cfg1.N) :
    (dat1 V c).flushed 3 t = ((cfg1.win 3).blk t).view.read (Elt Ideal)
      (layer2 (V c main_v45) (V c main_v46) (V c main_arg4)) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin, View.ld_unit_zero (S := S64x64) origin]
  obtain ⟨e0, e1, e2, e3, e4, e5, e6, e7⟩ := idx_facts t
  funext j
  show k1_pay1 (iblk1 V c 0 t) (iblk1 V c 1 t) (iblk1 V c 2 t) j
    = layer2 (V c main_v45) (V c main_v46) (V c main_arg4) (((cfg1.win 3).blk t).view.emb j)
  rw [pay_apply, layer2_apply]
  refine Finset.sum_congr rfl fun k _ => ?_
  have h0 : ((cfg1.win 0).blk t).view.emb (lrow j k) = Cert.ReferenceIdeal.Read.lidx_main_v50 (((cfg1.win 3).blk t).view.emb j) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : ((cfg1.win 1).blk t).view.emb (brow k) = Cert.ReferenceIdeal.Read.idx_main_v47 (Cert.ReferenceIdeal.Read.lidx_main_v50 (((cfg1.win 3).blk t).view.emb j) k) := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (rcol j k) = Cert.ReferenceIdeal.Read.ridx_main_v50 (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  refine congrArg₂ (fun (a b : EReal) => a * b) ?_ ?_
  · refine congrArg₂ (fun (a b : EReal) => max (a + b) (Ideal.ofBits .f32 0x00000000#32)) ?_ ?_
    · show V c main_v45 (((cfg1.win 0).blk t).view.emb (lrow j k)) = _
      rw [h0]
    · show V c main_v46 (((cfg1.win 1).blk t).view.emb (brow k)) = _
      rw [h1]
  · show V c main_arg4 (((cfg1.win 2).blk t).view.emb (rcol j k)) = _
    rw [h2]

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- Row `r` is in the block of the point whose row block is `r / 10000`: the ten blocks cover the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the ten write-backs is the whole layer. -/
theorem array_eq (c : Dev nD) :
    (dat1 V c).arrAt 3 cfg1.N = layer2 (V c main_v45) (V c main_v46) (V c main_arg4) :=
  (dat1 V c).arrAt_eq_of_cover 3 _ (fun t _ => flushed_eq V c t) cover

end Cert.Gcn.Product2

end
-- ==== Proof.Product3.lean ====
/-
  The head, y = max(a + b₂, 0) · W_f + b_f (100000 × 64 by 64 × 1), as the pipelined kernel computes it: at grid point t the
  body loads rows 10000·t … 10000·t + 9999 of the aggregated features a, the bias as a 1 × 64 row, the 64 × 1 weights and the
  last bias as a 1 × 1 array; it adds the bias row to every row, clamps at zero from below, multiplies into a zero accumulator
  and adds the last bias to every entry. Entry r of the block is Σ_k max(a[10000·t + r, k] + b₂[k], 0) · W_f[k] + b_f, which is
  entry 10000·t + r of the whole head; the ten blocks tile the rows, so the output array ends as the whole `head`.
-/
import proofs.«120038_j26852135535045_1_alg».proof.Proof.Gen.KernelIdeal.Frame
import proofs.«120038_j26852135535045_1_alg».proof.Proof.Gen.ReferenceIdeal.Read
import proofs.«120038_j26852135535045_1_alg».proof.Proof.Graph
import Idealize.ShloMosaic.Lib.Pipeline.Value
import Idealize.ShloMosaic.Lib.ValueIdx
import Idealize.ShloMosaic.PureOps.Ideal.Laws

set_option maxRecDepth 16384

noncomputable section

namespace Cert.Gcn.Product3

open Cert.KernelIdeal Cert.KernelIdeal.Gen
open Idealize.ShloMosaic Idealize.ShloMosaic.TcCoe Idealize.SL.Sem
open Idealize.ShloMosaic.Pipeline (Dat)

theorem origin : (![0, 0] : Fin 2 → Nat) = fun _ => 0 := funext fun a => by fin_cases a <;> rfl

/-- Row `r` of the feature block at contraction step `k`. -/
abbrev lrow (j : S10000x1.Idx) (k : Fin 64) : S10000x64.Idx := fun a => match a with
  | ⟨0, _⟩ => ⟨(j 0).val, (j 0).isLt⟩
  | ⟨1, _⟩ => ⟨k.val, k.isLt⟩
/-- Entry `k` of the bias row. -/
abbrev brow (k : Fin 64) : S1x64.Idx := fun a => match a with
  | ⟨0, _⟩ => ⟨0, Nat.one_pos⟩
  | ⟨1, _⟩ => ⟨k.val, k.isLt⟩
/-- The weights' one column at contraction step `k`. -/
abbrev rcol (j : S10000x1.Idx) (k : Fin 64) : S64x1.Idx := fun a => match a with
  | ⟨0, _⟩ => ⟨k.val, k.isLt⟩
  | ⟨1, _⟩ => ⟨(j 1).val, (j 1).isLt⟩
/-- The one entry of the last bias. -/
abbrev corner : S1x1.Idx := fun a => match a with
  | ⟨0, _⟩ => ⟨0, Nat.one_pos⟩
  | ⟨1, _⟩ => ⟨0, Nat.one_pos⟩

theorem lhs_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- What the body stores, entry by entry: bias added, clamped at zero, the block product as a sum over the 64 contraction
    steps, then the last bias (format changes are the identity on the extended reals; the accumulator starts at zero). -/
theorem pay_apply (x0 : FVec Ideal S10000x64 .f32) (x1 : FVec Ideal S1x64 .f32) (x2 : FVec Ideal S64x1 .f32) (x3 : FVec Ideal S1x1 .f32)
    (j : S10000x1.Idx) :
    k2_pay1 (F := Ideal) x0 x1 x2 x3 j
      = (∑ k : Fin 64, max (x0 (lrow j k) + x1 (brow k)) (Ideal.ofBits .f32 0x00000000#32) * x2 (rcol j k)) + x3 corner := by
  unfold k2_pay1
  refine congrArg₂ (fun (a b : EReal) => a + b) ?_ ?_
  · refine (Ideal.matmul_constant_zero_apply dot_S10000x64_S64x1_S10000x1_1_0_0_1_n_n none _ _ j).trans ?_
    rw [← Equiv.sum_comp (ValueIdx.contrEquiv1 dot_S10000x64_S64x1_S10000x1_1_0_0_1_n_n 64 rfl rfl).symm]
    refine Finset.sum_congr rfl fun k _ => ?_
    have hk := ValueIdx.contrEquiv1_symm_val dot_S10000x64_S64x1_S10000x1_1_0_0_1_n_n 64 rfl rfl k
    have el : dot_S10000x64_S64x1_S10000x1_1_0_0_1_n_n.lhsIdx j ((ValueIdx.contrEquiv1 dot_S10000x64_S64x1_S10000x1_1_0_0_1_n_n 64 rfl rfl).symm k) = lrow j k := funext fun a => Fin.ext (by
      match a with
      | ⟨0, _⟩ => exact lhs_0 _ _
      | ⟨1, _⟩ => exact (lhs_1 _ _).trans hk)
    have er : dot_S10000x64_S64x1_S10000x1_1_0_0_1_n_n.rhsIdx j ((ValueIdx.contrEquiv1 dot_S10000x64_S64x1_S10000x1_1_0_0_1_n_n 64 rfl rfl).symm k) = rcol j k := funext fun a => Fin.ext (by
      match a with
      | ⟨0, _⟩ => exact (rhs_0 _ _).trans hk
      | ⟨1, _⟩ => exact rhs_1 _ _)
    rw [el, er]
    refine congrArg₂ (fun (a b : EReal) => a * b) ?_ rfl
    refine congrArg₂ (fun (a b : EReal) => max (a + b) (Ideal.ofBits .f32 0x00000000#32)) ?_ ?_
    · exact congrFun (shapeCast_self x0 shapeCasts_S10000x64_S10000x64) (lrow j k)
    · refine (broadcastTo_apply (shapeCast S1x64 x1 shapeCasts_S1x64_S1x64) broadcasts_S1x64_S10000x64 (lrow j k) (brow k) (fun a => match a with
        | ⟨0, _⟩ => by show 0 = if (1 : Nat) = 1 then 0 else _; rw [if_pos rfl]
        | ⟨1, _⟩ => by show k.val = if (64 : Nat) = 1 then 0 else k.val; rw [if_neg (by decide)])).trans ?_
      exact congrFun (shapeCast_self x1 shapeCasts_S1x64_S1x64) (brow k)
  · refine (broadcastTo_apply (shapeCast S1x1 x3 shapeCasts_S1x1_S1x1) broadcasts_S1x1_S10000x1 j corner (fun a => match a with
      | ⟨0, _⟩ => by show 0 = if (1 : Nat) = 1 then 0 else _; rw [if_pos rfl]
      | ⟨1, _⟩ => by show 0 = if (1 : Nat) = 1 then 0 else _; rw [if_pos rfl])).trans ?_
    exact congrFun (shapeCast_self x3 shapeCasts_S1x1_S1x1) corner

/-- The whole head read at an entry: the same sum and the same last bias, over the whole arrays. -/
theorem head_apply (A : Feat) (bb : FVec Ideal Cert.ReferenceIdeal.S1x64 .f32)
    (w : FVec Ideal Cert.ReferenceIdeal.S64x1 .f32) (cc : FVec Ideal Cert.ReferenceIdeal.S1x1 .f32) (i : Cert.ReferenceIdeal.S100000x1.Idx) :
    head A bb w cc i = (∑ k : Fin 64, max (A (Cert.ReferenceIdeal.Read.lidx_main_v68 i k) + bb (Cert.ReferenceIdeal.Read.idx_main_v65 (Cert.ReferenceIdeal.Read.lidx_main_v68 i k))) (Ideal.ofBits .f32 0x00000000#32) * w (Cert.ReferenceIdeal.Read.ridx_main_v68 i k))
      + cc (Cert.ReferenceIdeal.Read.idx_main_v70 i) := by
  unfold head
  refine congrArg₂ (fun (a b : EReal) => a + b) ?_ ?_
  · simp only [Host.dotGeneral]
    rw [Ideal.dotGeneral_apply, ← Equiv.sum_comp (ValueIdx.contrEquiv1 Cert.ReferenceIdeal.dot_S100000x64_S64x1_S100000x1_1_0_0_1_n_n 64 rfl rfl).symm]
    refine Finset.sum_congr rfl fun k _ => ?_
    have hk := ValueIdx.contrEquiv1_symm_val Cert.ReferenceIdeal.dot_S100000x64_S64x1_S100000x1_1_0_0_1_n_n 64 rfl rfl k
    have el : Cert.ReferenceIdeal.dot_S100000x64_S64x1_S100000x1_1_0_0_1_n_n.lhsIdx i ((ValueIdx.contrEquiv1 Cert.ReferenceIdeal.dot_S100000x64_S64x1_S100000x1_1_0_0_1_n_n 64 rfl rfl).symm k) = Cert.ReferenceIdeal.Read.lidx_main_v68 i k := funext fun a => Fin.ext (by
      match a with
      | ⟨0, _⟩ => exact Cert.ReferenceIdeal.Read.lhs_main_v68_0 _ _
      | ⟨1, _⟩ => exact (Cert.ReferenceIdeal.Read.lhs_main_v68_1 _ _).trans hk)
    have er : Cert.ReferenceIdeal.dot_S100000x64_S64x1_S100000x1_1_0_0_1_n_n.rhsIdx i ((ValueIdx.contrEquiv1 Cert.ReferenceIdeal.dot_S100000x64_S64x1_S100000x1_1_0_0_1_n_n 64 rfl rfl).symm k) = Cert.ReferenceIdeal.Read.ridx_main_v68 i k := funext fun a => Fin.ext (by
      match a with
      | ⟨0, _⟩ => exact (Cert.ReferenceIdeal.Read.rhs_main_v68_0 _ _).trans hk
      | ⟨1, _⟩ => exact Cert.ReferenceIdeal.Read.rhs_main_v68_1 _ _)
    rw [el, er]
    refine congrArg₂ (fun (a b : EReal) => a * b) ?_ rfl
    unfold act
    refine congrArg₂ (fun (a b : EReal) => max (A (Cert.ReferenceIdeal.Read.lidx_main_v68 i k) + a) b) ?_ ?_
    · exact broadcastInDim_apply _ _ bb (Cert.ReferenceIdeal.Read.lidx_main_v68 i k) (Cert.ReferenceIdeal.Read.idx_main_v65 (Cert.ReferenceIdeal.Read.lidx_main_v68 i k)) (fun a => match a with
        | ⟨0, _⟩ => by show 0 = if (1 : Nat) = 1 then 0 else _; rw [if_pos rfl]
        | ⟨1, _⟩ => by show k.val = if (64 : Nat) = 1 then 0 else k.val; rw [if_neg (by decide)])
    · exact broadcastInDim_apply _ _ (constant (F := Ideal) Cert.ReferenceIdeal.S_ .f32 0x00000000#32) (Cert.ReferenceIdeal.Read.lidx_main_v68 i k) (fun a => a.elim0) (fun a => a.elim0)
  · exact broadcastInDim_apply _ _ cc i (Cert.ReferenceIdeal.Read.idx_main_v70 i) (fun a => match a with
      | ⟨0, _⟩ => by show 0 = if (1 : Nat) = 1 then 0 else _; rw [if_pos rfl]
      | ⟨1, _⟩ => by show 0 = if (1 : Nat) = 1 then 0 else _; rw [if_pos rfl])

variable (V : (c : Dev nD) → (b : Ref sig .tc) → Buf (Elt Ideal) ((c : Thread nD τ).loc b))

/-- The printed index maps, decided over the grid: the feature block and the output block move together along the
    rows and stay at column block 0; the bias row, the weights and the last bias never move; the output's row block is
    below 10. -/
theorem idx_facts : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 9 :=
  (by decide +kernel : ∀ t : Fin grid2.N, _)

/-- Every one of the ten row blocks is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- What point `t` writes back is block `t` of the whole head of the arrays as the region finds them. -/
theorem flushed_eq (c : Dev nD) (t : Fin cfg2.N) :
    (dat2 V c).flushed 4 t = ((cfg2.win 4).blk t).view.read (Elt Ideal)
      (head (V c main_v59) (V c main_v60) (V c main_arg6) (V c main_v61)) := by
  show (cfg2.win 4).cut (grid2.coords t) ((dat2 V c).after 4 t) = _
  rw [after2_4]
  unfold out2_4
  rw [View.canon_unit_zero origin]
  simp only [View.ld_unit_zero (S := S10000x64) origin, View.ld_unit_zero (S := S1x64) origin, View.ld_unit_zero (S := S64x1) origin,
    View.ld_unit_zero (S := S1x1) origin]
  obtain ⟨e0, e1, e2, e3, e4, e5, e6, e7, e8, e9⟩ := idx_facts t
  funext j
  show k2_pay1 (iblk2 V c 0 t) (iblk2 V c 1 t) (iblk2 V c 2 t) (iblk2 V c 3 t) j
    = head (V c main_v59) (V c main_v60) (V c main_arg6) (V c main_v61) (((cfg2.win 4).blk t).view.emb j)
  rw [pay_apply, head_apply]
  have h3 : ((cfg2.win 3).blk t).view.emb corner = Cert.ReferenceIdeal.Read.idx_main_v70 (((cfg2.win 4).blk t).view.emb j) := by
    funext a; apply Fin.ext
    match a with
    | ⟨0, _⟩ => show win2_3.index t (0 : Fin 2) * 1 + 1 * 0 = 0; omega
    | ⟨1, _⟩ => show win2_3.index t (1 : Fin 2) * 1 + 1 * 0 = 0; omega
  refine congrArg₂ (fun (a b : EReal) => a + b) ?_ ?_
  · refine Finset.sum_congr rfl fun k _ => ?_
    have h0 : ((cfg2.win 0).blk t).view.emb (lrow j k) = Cert.ReferenceIdeal.Read.lidx_main_v68 (((cfg2.win 4).blk t).view.emb j) k := by
      funext a; apply Fin.ext
      match a with
      | ⟨0, _⟩ => show win2_0.index t (0 : Fin 2) * 10000 + 1 * (j 0).val = win2_4.index t (0 : Fin 2) * 10000 + 1 * (j 0).val; omega
      | ⟨1, _⟩ => show win2_0.index t (1 : Fin 2) * 64 + 1 * k.val = k.val; omega
    have h1 : ((cfg2.win 1).blk t).view.emb (brow k) = Cert.ReferenceIdeal.Read.idx_main_v65 (Cert.ReferenceIdeal.Read.lidx_main_v68 (((cfg2.win 4).blk t).view.emb j) k) := by
      funext a; apply Fin.ext
      match a with
      | ⟨0, _⟩ => show win2_1.index t (0 : Fin 2) * 1 + 1 * 0 = 0; omega
      | ⟨1, _⟩ => show win2_1.index t (1 : Fin 2) * 64 + 1 * k.val = k.val; omega
    have h2 : ((cfg2.win 2).blk t).view.emb (rcol j k) = Cert.ReferenceIdeal.Read.ridx_main_v68 (((cfg2.win 4).blk t).view.emb j) k := by
      funext a; apply Fin.ext
      match a with
      | ⟨0, _⟩ => show win2_2.index t (0 : Fin 2) * 64 + 1 * k.val = k.val; omega
      | ⟨1, _⟩ => show win2_2.index t (1 : Fin 2) * 1 + 1 * (j 1).val = win2_4.index t (1 : Fin 2) * 1 + 1 * (j 1).val; omega
    refine congrArg₂ (fun (a b : EReal) => a * b) ?_ ?_
    · refine congrArg₂ (fun (a b : EReal) => max (a + b) (Ideal.ofBits .f32 0x00000000#32)) ?_ ?_
      · show V c main_v59 (((cfg2.win 0).blk t).view.emb (lrow j k)) = _
        rw [h0]
      · show V c main_v60 (((cfg2.win 1).blk t).view.emb (brow k)) = _
        rw [h1]
    · show V c main_arg6 (((cfg2.win 2).blk t).view.emb (rcol j k)) = _
      rw [h2]
  · show V c main_v61 (((cfg2.win 3).blk t).view.emb corner) = _
    rw [h3]

/-- An index of the output array is in point `t`'s block iff each coordinate is in the block's range on its axis. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v62).slice (win2_4.rect t)).set ↔ _
  rw [View.set_slice_whole, Rect.mem_set_unit]
  exact Iff.rfl

/-- Row `r` is in the block of the point whose row block is `r / 10000`: the ten blocks cover the array. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- The output array after the ten write-backs is the whole head. -/
theorem array_eq (c : Dev nD) :
    (dat2 V c).arrAt 4 cfg2.N = head (V c main_v59) (V c main_v60) (V c main_arg6) (V c main_v61) :=
  (dat2 V c).arrAt_eq_of_cover 4 _ (fun t _ => flushed_eq V c t) cover

end Cert.Gcn.Product3

end
-- ==== Proof.Fold.lean ====
/-
  The kernel program's buffers, boundary by boundary. Between the three pipelined products the program runs host
  operations: before the first, the graph preparation (edge ends with self-loops, degrees, edge weights); between the
  products, one graph convolution each (gather, scale, scatter-add) and the reshape of a bias vector to a row. The
  contents at each boundary are a fold from the launch memory; here each live buffer at each boundary is read back as a
  whole-array function of the argument arrays: the edge ends and the edge-weight column are carried unchanged from the
  first stretch, each product's output array is that product of the arrays the region found (Product1, Product2, Product3),
  each convolution is `conv` of the product before it. At the last boundary the result buffer holds `out` of the arguments.
-/
import proofs.«120038_j26852135535045_1_alg».proof.Proof.Gen.KernelIdeal.Frame
import proofs.«120038_j26852135535045_1_alg».proof.Proof.Gen.ReferenceIdeal.Read
import proofs.«120038_j26852135535045_1_alg».proof.Proof.Graph
import proofs.«120038_j26852135535045_1_alg».proof.Proof.Product1
import proofs.«120038_j26852135535045_1_alg».proof.Proof.Product2
import proofs.«120038_j26852135535045_1_alg».proof.Proof.Product3
import Idealize.ShloMosaic.Lib.Pipeline.Value
import Idealize.ShloMosaic.Lib.ValueIdx
import Idealize.ShloMosaic.Lib.StableHlo.Run

set_option maxRecDepth 16384

noncomputable section

namespace Cert.Gcn.Fold

open Cert.KernelIdeal Cert.KernelIdeal.Gen
open Idealize.ShloMosaic Idealize.ShloMosaic.TcCoe Idealize.SL.Sem Idealize.ShloMosaic.StableHlo

/-- The edge weights as a 3300000 × 1 column (the form the first stretch leaves them in for both convolutions). -/
def ncol (e : Edges) : FVec Ideal Cert.ReferenceIdeal.S3300000x1 .f32 :=
  broadcastInDim Cert.ReferenceIdeal.S3300000x1 ![0] Cert.ReferenceIdeal.Facts₀.bcast_S3300000_S3300000x1_0 (norm e)

/-- A vector of 64 reshaped to 1 × 64 is the vector as a row. -/
theorem reshape_row (b : FVec Ideal S64 .f32) (h : S64.ShapeCasts S1x64) : shapeCast S1x64 b h = row b := by
  funext i
  refine (shapeCast_addUnit_apply ![64] b h i).trans ?_
  refine Eq.trans ?_ (Cert.ReferenceIdeal.Read.val_main_v46_apply (F := Ideal) b i).symm
  exact congrArg b (funext fun a => match a with | ⟨0, _⟩ => Fin.ext rfl)

/-- A vector of one entry reshaped to 1 × 1 is the vector as a 1 × 1 array. -/
theorem reshape_one (b : FVec Ideal S1 .f32) (h : S1.ShapeCasts S1x1) : shapeCast S1x1 b h = one b := by
  funext i
  refine (shapeCast_addUnit_apply ![1] b h i).trans ?_
  refine Eq.trans ?_ (Cert.ReferenceIdeal.Read.val_main_v69_apply (F := Ideal) b i).symm
  exact congrArg b (funext fun a => match a with | ⟨0, _⟩ => Fin.ext (by have h1 : (i 1).val < 1 := (i 1).isLt; show (i 1).val = 0; omega))

variable (m : (ℓ : Loc nD τ sig) → Buf (Elt Ideal) ℓ) (ρ : Dev nD → PrngReg) (c : Dev nD)

/-! ## After the first stretch: the graph's arrays, and the arguments as launched -/

theorem at1_src : W1 m ρ c (Proc.devRef .tc main_v3) = src (m ((c : Thread nD τ).loc main_arg1)) := by
  show StableHlo.after hostOps0 (W0 m ρ c) (Proc.devRef .tc main_v3) = _
  after_results_simp <;> rfl
theorem at1_dst : W1 m ρ c (Proc.devRef .tc main_v6) = dst (m ((c : Thread nD τ).loc main_arg1)) := by
  show StableHlo.after hostOps0 (W0 m ρ c) (Proc.devRef .tc main_v6) = _
  after_results_simp <;> rfl
theorem at1_ncol : W1 m ρ c (Proc.devRef .tc main_v32) = ncol (m ((c : Thread nD τ).loc main_arg1)) := by
  show StableHlo.after hostOps0 (W0 m ρ c) (Proc.devRef .tc main_v32) = _
  after_results_simp <;> rfl
theorem at1_arg0 : W1 m ρ c (Proc.devRef .tc main_arg0) = (m ((c : Thread nD τ).loc main_arg0)) := by
  show StableHlo.after hostOps0 (W0 m ρ c) (Proc.devRef .tc main_arg0) = _
  after_results_simp <;> rfl
theorem at1_arg2 : W1 m ρ c (Proc.devRef .tc main_arg2) = (m ((c : Thread nD τ).loc main_arg2)) := by
  show StableHlo.after hostOps0 (W0 m ρ c) (Proc.devRef .tc main_arg2) = _
  after_results_simp <;> rfl
theorem at1_arg3 : W1 m ρ c (Proc.devRef .tc main_arg3) = (m ((c : Thread nD τ).loc main_arg3)) := by
  show StableHlo.after hostOps0 (W0 m ρ c) (Proc.devRef .tc main_arg3) = _
  after_results_simp <;> rfl
theorem at1_arg4 : W1 m ρ c (Proc.devRef .tc main_arg4) = (m ((c : Thread nD τ).loc main_arg4)) := by
  show StableHlo.after hostOps0 (W0 m ρ c) (Proc.devRef .tc main_arg4) = _
  after_results_simp <;> rfl
theorem at1_arg5 : W1 m ρ c (Proc.devRef .tc main_arg5) = (m ((c : Thread nD τ).loc main_arg5)) := by
  show StableHlo.after hostOps0 (W0 m ρ c) (Proc.devRef .tc main_arg5) = _
  after_results_simp <;> rfl
theorem at1_arg6 : W1 m ρ c (Proc.devRef .tc main_arg6) = (m ((c : Thread nD τ).loc main_arg6)) := by
  show StableHlo.after hostOps0 (W0 m ρ c) (Proc.devRef .tc main_arg6) = _
  after_results_simp <;> rfl
theorem at1_arg7 : W1 m ρ c (Proc.devRef .tc main_arg7) = (m ((c : Thread nD τ).loc main_arg7)) := by
  show StableHlo.after hostOps0 (W0 m ρ c) (Proc.devRef .tc main_arg7) = _
  after_results_simp <;> rfl

/-! ## After the first product -/

theorem at2_lin1 : W2 m ρ c (Proc.devRef .tc main_v33) = lin1 (m ((c : Thread nD τ).loc main_arg0)) (m ((c : Thread nD τ).loc main_arg2)) :=
  (W2_arr m ρ c 2).trans ((Product1.array_eq (V1 m ρ) c).trans (by
    show Cert.ReferenceIdeal.Read.val_main_v32 (F := Ideal) (W1 m ρ c (Proc.devRef .tc main_arg0)) (W1 m ρ c (Proc.devRef .tc main_arg2)) = _
    rw [at1_arg0 m ρ c, at1_arg2 m ρ c]
    rfl))
theorem at2_src : W2 m ρ c (Proc.devRef .tc main_v3) = src (m ((c : Thread nD τ).loc main_arg1)) :=
  (W2_of_ne m ρ c main_v3 (by decide)).trans (at1_src m ρ c)
theorem at2_dst : W2 m ρ c (Proc.devRef .tc main_v6) = dst (m ((c : Thread nD τ).loc main_arg1)) :=
  (W2_of_ne m ρ c main_v6 (by decide)).trans (at1_dst m ρ c)
theorem at2_ncol : W2 m ρ c (Proc.devRef .tc main_v32) = ncol (m ((c : Thread nD τ).loc main_arg1)) :=
  (W2_of_ne m ρ c main_v32 (by decide)).trans (at1_ncol m ρ c)
theorem at2_arg3 : W2 m ρ c (Proc.devRef .tc main_arg3) = (m ((c : Thread nD τ).loc main_arg3)) :=
  (W2_of_ne m ρ c main_arg3 (by decide)).trans (at1_arg3 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)

/-! ## After the second stretch: the first convolution and the first bias row -/

theorem at3_agg : W3 m ρ c (Proc.devRef .tc main_v45) = conv (m ((c : Thread nD τ).loc main_arg1)) (lin1 (m ((c : Thread nD τ).loc main_arg0)) (m ((c : Thread nD τ).loc main_arg2))) := by
  show StableHlo.after hostOps1 (W2 m ρ c) (Proc.devRef .tc main_v45) = _
  after_results_simp
  rw [at2_lin1 m ρ c, at2_src m ρ c, at2_dst m ρ c, at2_ncol m ρ c]
  rfl
theorem at3_bias : W3 m ρ c (Proc.devRef .tc main_v46) = row (m ((c : Thread nD τ).loc main_arg3)) := by
  show StableHlo.after hostOps1 (W2 m ρ c) (Proc.devRef .tc main_v46) = _
  after_results_simp
  rw [at2_arg3 m ρ c]
  exact reshape_row _ _
theorem at3_src : W3 m ρ c (Proc.devRef .tc main_v3) = src (m ((c : Thread nD τ).loc main_arg1)) := by
  show StableHlo.after hostOps1 (W2 m ρ c) (Proc.devRef .tc main_v3) = _
  after_results_simp
  exact at2_src m ρ c
theorem at3_dst : W3 m ρ c (Proc.devRef .tc main_v6) = dst (m ((c : Thread nD τ).loc main_arg1)) := by
  show StableHlo.after hostOps1 (W2 m ρ c) (Proc.devRef .tc main_v6) = _
  after_results_simp
  exact at2_dst m ρ c
theorem at3_ncol : W3 m ρ c (Proc.devRef .tc main_v32) = ncol (m ((c : Thread nD τ).loc main_arg1)) := by
  show StableHlo.after hostOps1 (W2 m ρ c) (Proc.devRef .tc main_v32) = _
  after_results_simp
  exact at2_ncol m ρ c
theorem at3_arg4 : W3 m ρ c (Proc.devRef .tc main_arg4) = (m ((c : Thread nD τ).loc main_arg4)) := by
  show StableHlo.after hostOps1 (W2 m ρ c) (Proc.devRef .tc main_arg4) = _
  after_results_simp
  exact at2_arg4 m ρ c
theorem at3_arg5 : W3 m ρ c (Proc.devRef .tc main_arg5) = (m ((c : Thread nD τ).loc main_arg5)) := by
  show StableHlo.after hostOps1 (W2 m ρ c) (Proc.devRef .tc main_arg5) = _
  after_results_simp
  exact at2_arg5 m ρ c
theorem at3_arg6 : W3 m ρ c (Proc.devRef .tc main_arg6) = (m ((c : Thread nD τ).loc main_arg6)) := by
  show StableHlo.after hostOps1 (W2 m ρ c) (Proc.devRef .tc main_arg6) = _
  after_results_simp
  exact at2_arg6 m ρ c
theorem at3_arg7 : W3 m ρ c (Proc.devRef .tc main_arg7) = (m ((c : Thread nD τ).loc main_arg7)) := by
  show StableHlo.after hostOps1 (W2 m ρ c) (Proc.devRef .tc main_arg7) = _
  after_results_simp
  exact at2_arg7 m ρ c

/-! ## After the second product -/

theorem at4_layer2 : W4 m ρ c (Proc.devRef .tc main_v47) = layer2 (conv (m ((c : Thread nD τ).loc main_arg1)) (lin1 (m ((c : Thread nD τ).loc main_arg0)) (m ((c : Thread nD τ).loc main_arg2)))) (row (m ((c : Thread nD τ).loc main_arg3))) (m ((c : Thread nD τ).loc main_arg4)) :=
  (W4_arr m ρ c 3).trans ((Product2.array_eq (V3 m ρ) c).trans (by
    show layer2 (W3 m ρ c (Proc.devRef .tc main_v45)) (W3 m ρ c (Proc.devRef .tc main_v46)) (W3 m ρ c (Proc.devRef .tc main_arg4)) = _
    rw [at3_agg m ρ c, at3_bias m ρ c, at3_arg4 m ρ c]))
theorem at4_src : W4 m ρ c (Proc.devRef .tc main_v3) = src (m ((c : Thread nD τ).loc main_arg1)) :=
  (W4_of_ne m ρ c main_v3 (by decide)).trans (at3_src m ρ c)
theorem at4_dst : W4 m ρ c (Proc.devRef .tc main_v6) = dst (m ((c : Thread nD τ).loc main_arg1)) :=
  (W4_of_ne m ρ c main_v6 (by decide)).trans (at3_dst m ρ c)
theorem at4_ncol : W4 m ρ c (Proc.devRef .tc main_v32) = ncol (m ((c : Thread nD τ).loc main_arg1)) :=
  (W4_of_ne m ρ c main_v32 (by decide)).trans (at3_ncol m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)

/-! ## After the third stretch: the second convolution, the second bias row, the last bias -/

theorem at5_agg : W5 m ρ c (Proc.devRef .tc main_v59) = conv (m ((c : Thread nD τ).loc main_arg1)) (layer2 (conv (m ((c : Thread nD τ).loc main_arg1)) (lin1 (m ((c : Thread nD τ).loc main_arg0)) (m ((c : Thread nD τ).loc main_arg2)))) (row (m ((c : Thread nD τ).loc main_arg3))) (m ((c : Thread nD τ).loc main_arg4))) := by
  show StableHlo.after hostOps2 (W4 m ρ c) (Proc.devRef .tc main_v59) = _
  after_results_simp
  rw [at4_layer2 m ρ c, at4_src m ρ c, at4_dst m ρ c, at4_ncol m ρ c]
  rfl
theorem at5_bias : W5 m ρ c (Proc.devRef .tc main_v60) = row (m ((c : Thread nD τ).loc main_arg5)) := by
  show StableHlo.after hostOps2 (W4 m ρ c) (Proc.devRef .tc main_v60) = _
  after_results_simp
  rw [at4_arg5 m ρ c]
  exact reshape_row _ _
theorem at5_last : W5 m ρ c (Proc.devRef .tc main_v61) = one (m ((c : Thread nD τ).loc main_arg7)) := by
  show StableHlo.after hostOps2 (W4 m ρ c) (Proc.devRef .tc main_v61) = _
  after_results_simp
  rw [at4_arg7 m ρ c]
  exact reshape_one _ _
theorem at5_arg6 : W5 m ρ c (Proc.devRef .tc main_arg6) = (m ((c : Thread nD τ).loc main_arg6)) := by
  show StableHlo.after hostOps2 (W4 m ρ c) (Proc.devRef .tc main_arg6) = _
  after_results_simp
  exact at4_arg6 m ρ c

/-! ## After the third product: the result -/

/-- The result buffer's contents at the last boundary are the network of the argument arrays. -/
theorem result : W6 m ρ c (Proc.devRef .tc main_v62)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 4).trans ((Product3.array_eq (V5 m ρ) c).trans (by
    show head (W5 m ρ c (Proc.devRef .tc main_v59)) (W5 m ρ c (Proc.devRef .tc main_v60)) (W5 m ρ c (Proc.devRef .tc main_arg6)) (W5 m ρ c (Proc.devRef .tc main_v61)) = _
    rw [at5_agg m ρ c, at5_bias m ρ c, at5_arg6 m ρ c, at5_last m ρ c]
    rfl))

end Cert.Gcn.Fold

end
-- ==== Proof.lean ====
/-
  A two-layer graph convolutional network with a linear head, on 100000 nodes and 3200000 edges:
  out = max(Â·max(Â·(x·W₁) + b₁, 0)·W₂ + b₂, 0)·W_f + b_f, where Â is the symmetrically normalised adjacency with
  self-loops, applied as gather – scale – scatter-add (`Cert.Gcn.conv`).

  The kernel program computes the three matrix products in three pipelined kernels, each tiling the 100000 rows into ten
  blocks of 10000, the bias and the clamp at zero fused into the second and third; the graph preparation and the two
  convolutions are host operations around them, the same operations the reference program runs. The reference program
  computes the products by whole contractions.

  On the extended reals a block of a product is the restriction of the whole product to the block's rows (the change of
  float format before each product is the identity, each accumulator starts at zero, and a sum of products does not depend
  on how the rows are tiled), so after its ten write-backs each kernel's output array is the whole product of the arrays
  the kernel found (Product1, Product2, Product3). Reading the program's buffers boundary by boundary (Fold) the result
  buffer ends at `Cert.Gcn.out` of the eight argument arrays, and the reference program's result is the same `out` of its
  arguments by unfolding (Graph). No step uses that the inputs are finite: only sums are re-tiled, never re-associated
  across a product or cancelled.

  The three frame claims are the generated frames (the reference's is its generated run with the result dropped); the
  idealization rewrote nothing, so `preserves` is trivial.
-/
import proofs.«120038_j26852135535045_1_alg».proof.Defs
import proofs.«120038_j26852135535045_1_alg».proof.Proof.Gen.Kernel
import proofs.«120038_j26852135535045_1_alg».proof.Proof.Gen.Kernel.Skeleton
import proofs.«120038_j26852135535045_1_alg».proof.Proof.Gen.Kernel.Launch
import proofs.«120038_j26852135535045_1_alg».proof.Proof.Gen.Kernel.Points
import proofs.«120038_j26852135535045_1_alg».proof.Proof.Gen.Kernel.Frame
import proofs.«120038_j26852135535045_1_alg».proof.Proof.Gen.KernelIdeal
import proofs.«120038_j26852135535045_1_alg».proof.Proof.Gen.KernelIdeal.Skeleton
import proofs.«120038_j26852135535045_1_alg».proof.Proof.Gen.KernelIdeal.Launch
import proofs.«120038_j26852135535045_1_alg».proof.Proof.Gen.KernelIdeal.Points
import proofs.«120038_j26852135535045_1_alg».proof.Proof.Gen.KernelIdeal.Frame
import proofs.«120038_j26852135535045_1_alg».proof.Proof.Gen.ReferenceIdeal
import proofs.«120038_j26852135535045_1_alg».proof.Proof.Gen.ReferenceIdeal.Run
import proofs.«120038_j26852135535045_1_alg».proof.Proof.Gen.ReferenceIdeal.Read
import proofs.«120038_j26852135535045_1_alg».proof.Proof.Gen.Pre_finite_inputs
import proofs.«120038_j26852135535045_1_alg».proof.Proof.KernelRun
import proofs.«120038_j26852135535045_1_alg».proof.Proof.Graph
import proofs.«120038_j26852135535045_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network `Cert.Gcn.out` of the (agreeing) argument arrays in their result buffers. -/
theorem algebraic : Cert.algebraic_KernelIdeal_ReferenceIdeal := by
  intro m ρ m' ρ' _ hagree
  refine ⟨fun c => Cert.KernelIdeal.Gen.W6 m ρ c (Proc.devRef .tc Cert.KernelIdeal.main_v62), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.Gcn.reference_result m' c, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Gcn.Fold.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
